-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S5000x64 : Shape := ⟨2, ![5000, 64]⟩
abbrev S5000x1 : Shape := ⟨2, ![5000, 1]⟩
abbrev S1100000x64 : Shape := ⟨2, ![1100000, 64]⟩
abbrev S1x64 : Shape := ⟨2, ![1, 64]⟩

abbrev nBuf : Space → Nat
  | .hbm => 49
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S1000000, .i1⟩
  | .hbm, ⟨9, _⟩ => ⟨S1000000, .f32⟩
  | .hbm, ⟨10, _⟩ => ⟨S100000, .i32⟩
  | .hbm, ⟨11, _⟩ => ⟨S1100000, .i32⟩
  | .hbm, ⟨12, _⟩ => ⟨S1100000, .i32⟩
  | .hbm, ⟨13, _⟩ => ⟨S_, .f32⟩
  | .hbm, ⟨14, _⟩ => ⟨S100000, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .bf16⟩
  | .hbm, ⟨30, _⟩ => ⟨S_, .i32⟩
  | .hbm, ⟨31, _⟩ => ⟨S1100000, .i32⟩
  | .hbm, ⟨32, _⟩ => ⟨S1100000, .i1⟩
  | .hbm, ⟨33, _⟩ => ⟨S_, .i32⟩
  | .hbm, ⟨34, _⟩ => ⟨S1100000, .i32⟩
  | .hbm, ⟨35, _⟩ => ⟨S1100000, .i32⟩
  | .hbm, ⟨36, _⟩ => ⟨S1100000, .i32⟩
  | .hbm, ⟨37, _⟩ => ⟨S1100000x1, .i32⟩
  | .hbm, ⟨38, _⟩ => ⟨S1100000x64, .bf16⟩
  | .hbm, ⟨39, _⟩ => ⟨S1100000x1, .f32⟩
  | .hbm, ⟨40, _⟩ => ⟨S1100000x64, .f32⟩
  | .hbm, ⟨41, _⟩ => ⟨S1100000x64, .f32⟩
  | .hbm, ⟨42, _⟩ => ⟨S1100000x64, .f32⟩
  | .hbm, ⟨43, _⟩ => ⟨S_, .f32⟩
  | .hbm, ⟨44, _⟩ => ⟨S100000x64, .f32⟩
  | .hbm, ⟨45, _⟩ => ⟨S1100000x1, .i32⟩
  | .hbm, ⟨46, _⟩ => ⟨S100000x64, .f32⟩
  | .hbm, ⟨47, _⟩ => ⟨S100000x1, .f32⟩
  | .hbm, ⟨48, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  shapeCasts_S5000x64_S5000x64 : S5000x64.ShapeCasts S5000x64
  scatter_S100000_S1100000x1_S1100000_n_0_0_1_wf : ScatterDims.WF S100000 S1100000x1 S1100000 [] [0] [0] 1
  dot_S5000x64_S64x64_S5000x64_1_0_0_1_n_n_wf : DotDims.WF S5000x64 S64x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S1x1000000, .i32⟩
  | .hbm, ⟨5, _⟩ => ⟨S1000000, .i32⟩
  | .hbm, ⟨6, _⟩ => ⟨S1x1000000, .i32⟩
  | .hbm, ⟨7, _⟩ => ⟨S1000000, .i32⟩
  | .hbm, ⟨8, _⟩ => ⟨S1000000, .i1⟩
  | .hbm, ⟨9, _⟩ => ⟨S1000000, .f32⟩
  | .hbm, ⟨10, _⟩ => ⟨S100000, .i32⟩
  | .hbm, ⟨11, _⟩ => ⟨S1100000, .i32⟩
  | .hbm, ⟨12, _⟩ => ⟨S1100000, .i32⟩
  | .hbm, ⟨13, _⟩ => ⟨S_, .f32⟩
  | .hbm, ⟨14, _⟩ => ⟨S100000, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S64x64, .f32⟩
  | .hbm, ⟨49, _⟩ => ⟨S100000x64, .f32⟩
  | .hbm, ⟨50, _⟩ => ⟨S1100000x1, .f32⟩
  | .hbm, ⟨51, _⟩ => ⟨S_, .i32⟩
  | .hbm, ⟨52, _⟩ => ⟨S1100000, .i32⟩
  | .hbm, ⟨53, _⟩ => ⟨S1100000, .i1⟩
  | .hbm, ⟨54, _⟩ => ⟨S_, .i32⟩
  | .hbm, ⟨55, _⟩ => ⟨S1100000, .i32⟩
  | .hbm, ⟨56, _⟩ => ⟨S1100000, .i32⟩
  | .hbm, ⟨57, _⟩ => ⟨S1100000, .i32⟩
  | .hbm, ⟨58, _⟩ => ⟨S1100000x1, .i32⟩
  | .hbm, ⟨59, _⟩ => ⟨S1100000x64, .f32⟩
  | .hbm, ⟨60, _⟩ => ⟨S1100000x64, .f32⟩
  | .hbm, ⟨61, _⟩ => ⟨S1100000x64, .f32⟩
  | .hbm, ⟨62, _⟩ => ⟨S_, .f32⟩
  | .hbm, ⟨63, _⟩ => ⟨S100000x64, .f32⟩
  | .hbm, ⟨64, _⟩ => ⟨S1100000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  transposes_S64x64_S64x64_1_0 : S64x64.Transposes [1, 0] S64x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.KernelRun.lean ====
/-
  The idealized kernel program's run with its RESULT named.

  The program is two pipelined kernel regions among stretches of host operations. Its generated frame follows the
  contents of every buffer from the launch memory through the segments — after each host stretch the stretch's
  operations applied, after each region the region's arrays at what its write-backs leave — down to the contents `W6`
  at the return, and then reads off `W6` that the four argument arrays are unchanged. Here the same run is read once more:
  the result array (the second region's output window) ends at `W6` of its buffer, which is what that region's
  write-backs leave, `arrAt 3 N` of the region's proof data at the contents it is entered with.
-/
import proofs.«160179_j59012850647685_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array at the return holds what the second region's write-backs leave. -/
theorem W6_result (c : Dev nD) :
    W6 m ρ c (Proc.devRef .tc main_v35) = (dat1 (V5 m ρ) c).arrAt 3 cfg1.N :=
  W6_arr m ρ c 3

-- the kit's implicit arguments are found by unifying its conclusion with this one, which takes unfolding plain
-- definitions in a metavariable's type
set_option backward.isDefEq.respectTransparency.types false in
/-- Every weakly fair execution of the program terminates, nothing faulting, with the result array at the contents
    `W6` of its buffer and the four argument arrays as launched. -/
theorem run : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Result

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.EpilogueValue.lean ====
/-
  The second kernel region (the epilogue) as one function of the arrays it is entered with.

  The region walks 20 blocks of 5000 rows. At block `t` it loads rows `5000 t … 5000 t + 4999` of the aggregate `A`
  (`[100000, 64]`), the same rows of the column `δ` (`[100000, 1]`) and the whole bias `β` (`[64]`), and stores
  `A[r, q] · δ[r, 0] + β[q]` back to the same rows of the output. The 20 blocks tile the output, so when the region
  is left the output array is `(r, q) ↦ A[r, q] · δ[r, 0] + β[q]`, whatever it held before.
-/
import proofs.«160179_j59012850647685_2_alg».proof.Proof.Gen.KernelIdeal.Frame
import proofs.«160179_j59012850647685_2_alg».proof.Proof.LibColumnLayout
import proofs.«160179_j59012850647685_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Epilogue

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic at entry `(p, q)` of a block: the aggregate's entry times the column's entry of row `p`, plus
    the bias's entry `q`. -/
theorem pay_apply (d0 : Vec Ideal S5000x1 .f32) (b0 : Vec Ideal S64 .f32) (a0 : Vec Ideal S5000x64 .f32)
    (p : Fin 5000) (q : Fin 64) :
    k1_pay1 d0 b0 a0 (ix2 p q) = a0 (ix2 p q) * d0 (ix2 p (0 : Fin 1)) + b0 (ix1 q) := by
  unfold k1_pay1
  rw [addf_apply, mulf_apply]
  simp only [shapeCast_self]
  rw [Cert.ColumnLayout.broadcastTo_a1_ab_apply, broadcastTo_1b_ab_apply, shapeCast_a_1a_apply]

/-- What the output array holds when the region is left, from the three arrays it is entered with. -/
def E (agg : S100000x64.Idx → EReal) (dcol : S100000x1.Idx → EReal) (bias : S64.Idx → EReal) : S100000x64.Idx → EReal :=
  fun i => agg i * dcol (ix2 (⟨(i 0).val, idx2_lt0 i⟩ : Fin 100000) (0 : Fin 1)) + bias (ix1 (⟨(i 1).val, idx2_lt1 i⟩ : Fin 64))

/-- The printed index maps over the grid: every row-blocked window is at block `(t, 0)`, the bias at block `0`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The aggregate's block at point `t` is its rows `5000 t …`. -/
theorem iblk_agg (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v33 : S100000x64.Idx → EReal) k := by
  obtain ⟨e0, e1, -⟩ := idx_facts t
  unfold iblk1
  rw [View.read_apply]
  show V c main_v33 _ = V c main_v33 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The column's block at point `t` is its rows `5000 t …`. -/
theorem iblk_col (c : Dev nD) (t : Fin cfg1.N) (x : S5000x1.Idx) (k : S100000x1.Idx)
    (hk0 : (k 0).val = 5000 * t.val + (x 0).val) (hk1 : (k 1).val = (x 1).val) :
    (iblk1 V c 1 t : Vec Ideal S5000x1 .f32) x = (V c main_v34 : S100000x1.Idx → EReal) k := by
  obtain ⟨-, -, e0, e1, -⟩ := idx_facts t
  unfold iblk1
  rw [View.read_apply]
  show V c main_v34 _ = V c main_v34 _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The bias's block at every point is the whole bias. -/
theorem iblk_bias (c : Dev nD) (t : Fin cfg1.N) (x : S64.Idx) (k : S64.Idx) (hk0 : (k 0).val = (x 0).val) :
    (iblk1 V c 2 t : Vec Ideal S64 .f32) x = (V c main_arg3 : S64.Idx → EReal) k := by
  obtain ⟨-, -, -, -, e0, -⟩ := idx_facts t
  unfold iblk1
  rw [View.read_apply]
  show V c main_arg3 _ = V c main_arg3 _
  congr 1
  funext a
  apply Fin.ext
  match a with
  | ⟨0, _⟩ => show win1_2.index t 0 * 64 + 1 * (x 0).val = (k 0).val; rw [e0, hk0]; omega

/-- What the body stores at entry `y` of block `t` is the whole-array function at the entry's place `k` in the array. -/
theorem point_eq (c : Dev nD) (t : Fin cfg1.N) (y : S5000x64.Idx) (k : S100000x64.Idx)
    (hk0 : (k 0).val = 5000 * t.val + (y 0).val) (hk1 : (k 1).val = (y 1).val) :
    k1_pay1 (iblk1 V c 1 t) (iblk1 V c 2 t) (iblk1 V c 0 t) y
      = E (V c main_v33) (V c main_v34) (V c main_arg3) k := by
  obtain ⟨p, q, rfl⟩ : ∃ (p : Fin 5000) (q : Fin 64), y = ix2 p q := ⟨y 0, y 1, eq_ix2 y⟩
  refine (pay_apply (iblk1 V c 1 t) (iblk1 V c 2 t) (iblk1 V c 0 t) p q).trans ?_
  unfold E
  exact congrArg₂ (· + ·)
    (congrArg₂ (· * ·) (iblk_agg V c t (ix2 p q) k hk0 hk1)
      (iblk_col V c t (ix2 p (0 : Fin 1)) (ix2 (⟨(k 0).val, idx2_lt0 k⟩ : Fin 100000) (0 : Fin 1)) hk0 rfl))
    (iblk_bias V c t (ix1 q) (ix1 (⟨(k 1).val, idx2_lt1 k⟩ : Fin 64)) hk1)

/-- What point `t` writes back is block `t` of the whole-array function. -/
theorem flushed_eq (c : Dev nD) (t : Fin cfg1.N) :
    (dat1 V c).flushed 3 t
      = ((cfg1.win 3).blk t).view.read (Elt Ideal) (E (V c main_v33) (V c main_v34) (V c main_arg3)) := by
  show (cfg1.win 3).cut (grid1.coords t) ((dat1 V c).after 3 t) = _
  rw [after1_3]
  unfold out1_3
  rw [View.canon_unit_zero hz2]
  simp only [View.ld_unit_zero (S := S5000x1) hz2, View.ld_unit_zero (S := S64) hz1, View.ld_unit_zero (S := S5000x64) hz2]
  obtain ⟨-, -, -, -, -, e5, e6⟩ := idx_facts t
  funext j
  show k1_pay1 (iblk1 V c 1 t) (iblk1 V c 2 t) (iblk1 V c 0 t) j
    = E (V c main_v33) (V c main_v34) (V c main_arg3) (((cfg1.win 3).blk t).view.emb j)
  refine point_eq V c t j _ ?_ ?_
  · show win1_3.index t 0 * 5000 + 1 * (j 0).val = 5000 * t.val + (j 0).val; rw [e5]; omega
  · show win1_3.index t 1 * 64 + 1 * (j 1).val = (j 1).val; rw [e6]; omega

/-- An index of the output is in point `t`'s block iff each coordinate is in the block's range. -/
theorem mem_blk (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v35).slice (win1_3.rect t)).set ↔ _
  rw [View.set_slice_whole, Rect.mem_set_unit]
  exact Iff.rfl

/-- Row `r` of the output is in the block of point `r / 5000`: the blocks cover the output. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by rw [hN]; omega
  refine ⟨⟨(i 0).val / 5000, ht⟩, flush1_3 _, ?_⟩
  rw [mem_blk]
  obtain ⟨-, -, -, -, -, e5, e6⟩ := idx_facts ⟨(i 0).val / 5000, ht⟩
  intro a
  match a with
  | ⟨0, _⟩ =>
    show win1_3.index ⟨(i 0).val / 5000, ht⟩ 0 * 5000 ≤ (i 0).val
      ∧ (i 0).val < win1_3.index ⟨(i 0).val / 5000, ht⟩ 0 * 5000 + 5000
    rw [e5]; show (i 0).val / 5000 * 5000 ≤ (i 0).val ∧ (i 0).val < (i 0).val / 5000 * 5000 + 5000; omega
  | ⟨1, _⟩ =>
    show win1_3.index ⟨(i 0).val / 5000, ht⟩ 1 * 64 ≤ (i 1).val
      ∧ (i 1).val < win1_3.index ⟨(i 0).val / 5000, ht⟩ 1 * 64 + 64
    rw [e6]; omega

/-- The output array when the region is left. -/
theorem final (c : Dev nD) :
    (dat1 V c).arrAt 3 cfg1.N = E (V c main_v33) (V c main_v34) (V c main_arg3) :=
  (dat1 V c).arrAt_eq_of_cover 3 (E (V c main_v33) (V c main_v34) (V c main_arg3)) (fun t _ => flushed_eq V c t) cover

end Cert.KernelIdeal.Epilogue

end
-- ==== Proof.LinearValue.lean ====
/-
  The first kernel region (the scaled linear layer) as one function of the arrays it is entered with.

  The region walks 20 blocks of 5000 rows. At block `t` it loads rows `5000 t … 5000 t + 4999` of `X` (`[100000, 64]`),
  the whole weight `W` (`[64, 64]`) and the same rows of the column `δ` (`[100000, 1]`), multiplies the rows of `X` by
  the transpose of `W` into a zero accumulator, scales row `r` of the product by `δ[r, 0]`, and stores the block to the
  same rows of the output. On the extended reals the two changes of float format are the identity, and the product
  into zero is the plain sum, so when the region is left the output array is
  `(r, q) ↦ (∑ₖ X[r, k] · W[q, k]) · δ[r, 0]`.
-/
import proofs.«160179_j59012850647685_2_alg».proof.Proof.Gen.KernelIdeal.Frame
import proofs.«160179_j59012850647685_2_alg».proof.Proof.LibColumnLayout
import proofs.«160179_j59012850647685_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Linear

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The printed dimension numbers of the body's product are the plain ones, `[M, K] × [K, N]`. -/
theorem dims_plain : dot_S5000x64_S64x64_S5000x64_1_0_0_1_n_n = DotDims.plain 5000 64 64 := rfl

/-- The body's arithmetic at entry `(p, q)` of a block: row `p` of the `X` block against row `q` of `W`, times the column's
    entry of row `p`. -/
theorem pay_apply (x0 : Vec Ideal S5000x64 .f32) (w0 : Vec Ideal S64x64 .f32) (d0 : Vec Ideal S5000x1 .f32)
    (p : Fin 5000) (q : Fin 64) :
    k0_pay1 x0 w0 d0 (ix2 p q) = (∑ k : Fin 64, x0 (ix2 p k) * w0 (ix2 q k)) * d0 (ix2 p (0 : Fin 1)) := by
  unfold k0_pay1
  rw [truncf_apply, mulf_apply]
  simp only [shapeCast_self]
  rw [Cert.ColumnLayout.broadcastTo_a1_ab_apply, dims_plain]
  refine congrArg (· * d0 (ix2 p (0 : Fin 1))) ?_
  refine (Cert.PlainMatmul.plain_apply (M := 5000) (K := 64) (N := 64) _ _ p q).trans ?_
  refine Finset.sum_congr rfl fun k _ => ?_
  rw [truncf_apply, transpose_ix2_apply, truncf_apply]

/-- What the output array holds when the region is left, from the three arrays it is entered with. -/
def E (x : S100000x64.Idx → EReal) (w : S64x64.Idx → EReal) (dcol : S100000x1.Idx → EReal) : S100000x64.Idx → EReal :=
  fun i => (∑ k : Fin 64, x (ix2 (⟨(i 0).val, idx2_lt0 i⟩ : Fin 100000) k) * w (ix2 (⟨(i 1).val, idx2_lt1 i⟩ : Fin 64) k))
    * dcol (ix2 (⟨(i 0).val, idx2_lt0 i⟩ : Fin 100000) (0 : Fin 1))

/-- The printed index maps over the grid: every row-blocked window is at block `(t, 0)`, the weight at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of `X` at point `t` is its rows `5000 t …`. -/
theorem iblk_x (c : Dev nD) (t : Fin cfg0.N) (x : S5000x64.Idx) (k : S100000x64.Idx)
    (hk0 : (k 0).val = 5000 * t.val + (x 0).val) (hk1 : (k 1).val = (x 1).val) :
    (iblk0 V c 0 t : Vec Ideal S5000x64 .f32) x = (V c main_arg0 : S100000x64.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 64 + 1 * (x 1).val = (k 1).val; rw [e1, hk1]; omega

/-- The block of `W` at every point is the whole of `W`. -/
theorem iblk_w (c : Dev nD) (t : Fin cfg0.N) (x : S64x64.Idx) (k : S64x64.Idx)
    (hk0 : (k 0).val = (x 0).val) (hk1 : (k 1).val = (x 1).val) :
    (iblk0 V c 1 t : Vec Ideal S64x64 .f32) x = (V c main_arg2 : S64x64.Idx → EReal) k := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 64 + 1 * (x 0).val = (k 0).val; rw [e0, hk0]; omega
  | ⟨1, _⟩ => show win0_1.index t 1 * 64 + 1 * (x 1).val = (k 1).val; rw [e1, hk1]; omega

/-- The column's block at point `t` is its rows `5000 t …`. -/
theorem iblk_col (c : Dev nD) (t : Fin cfg0.N) (x : S5000x1.Idx) (k : S100000x1.Idx)
    (hk0 : (k 0).val = 5000 * t.val + (x 0).val) (hk1 : (k 1).val = (x 1).val) :
    (iblk0 V c 2 t : Vec Ideal S5000x1 .f32) x = (V c main_v18 : S100000x1.Idx → EReal) k := by
  obtain ⟨-, -, -, -, e0, e1, -⟩ := idx_facts t
  unfold iblk0
  rw [View.read_apply]
  show V c main_v18 _ = V c main_v18 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- What the body stores at entry `y` of block `t` is the whole-array function at the entry's place `k` in the array. -/
theorem point_eq (c : Dev nD) (t : Fin cfg0.N) (y : S5000x64.Idx) (k : S100000x64.Idx)
    (hk0 : (k 0).val = 5000 * t.val + (y 0).val) (hk1 : (k 1).val = (y 1).val) :
    k0_pay1 (iblk0 V c 0 t) (iblk0 V c 1 t) (iblk0 V c 2 t) y
      = E (V c main_arg0) (V c main_arg2) (V c main_v18) k := by
  obtain ⟨p, q, rfl⟩ : ∃ (p : Fin 5000) (q : Fin 64), y = ix2 p q := ⟨y 0, y 1, eq_ix2 y⟩
  refine (pay_apply (iblk0 V c 0 t) (iblk0 V c 1 t) (iblk0 V c 2 t) p q).trans ?_
  unfold E
  refine congrArg₂ (· * ·) (Finset.sum_congr rfl fun j _ => ?_)
    (iblk_col V c t (ix2 p (0 : Fin 1)) (ix2 (⟨(k 0).val, idx2_lt0 k⟩ : Fin 100000) (0 : Fin 1)) hk0 rfl)
  exact congrArg₂ (· * ·)
    (iblk_x V c t (ix2 p j) (ix2 (⟨(k 0).val, idx2_lt0 k⟩ : Fin 100000) j) hk0 rfl)
    (iblk_w V c t (ix2 q j) (ix2 (⟨(k 1).val, idx2_lt1 k⟩ : Fin 64) j) hk1 rfl)

/-- What point `t` writes back is block `t` of the whole-array function. -/
theorem flushed_eq (c : Dev nD) (t : Fin cfg0.N) :
    (dat0 V c).flushed 3 t
      = ((cfg0.win 3).blk t).view.read (Elt Ideal) (E (V c main_arg0) (V c main_arg2) (V c main_v18)) := by
  show (cfg0.win 3).cut (grid0.coords t) ((dat0 V c).after 3 t) = _
  rw [after0_3]
  unfold out0_3
  rw [View.canon_unit_zero hz2]
  simp only [View.ld_unit_zero (S := S5000x1) hz2, View.ld_unit_zero (S := S64x64) hz2, View.ld_unit_zero (S := S5000x64) hz2]
  obtain ⟨-, -, -, -, -, -, e5, e6⟩ := idx_facts t
  funext j
  show k0_pay1 (iblk0 V c 0 t) (iblk0 V c 1 t) (iblk0 V c 2 t) j
    = E (V c main_arg0) (V c main_arg2) (V c main_v18) (((cfg0.win 3).blk t).view.emb j)
  refine point_eq V c t j _ ?_ ?_
  · show win0_3.index t 0 * 5000 + 1 * (j 0).val = 5000 * t.val + (j 0).val; rw [e5]; omega
  · show win0_3.index t 1 * 64 + 1 * (j 1).val = (j 1).val; rw [e6]; omega

/-- An index of the output is in point `t`'s block iff each coordinate is in the block's range. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v19).slice (win0_3.rect t)).set ↔ _
  rw [View.set_slice_whole, Rect.mem_set_unit]
  exact Iff.rfl

/-- Row `r` of the output is in the block of point `r / 5000`: the blocks cover the output. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  refine ⟨⟨(i 0).val / 5000, ht⟩, flush0_3 _, ?_⟩
  rw [mem_blk]
  obtain ⟨-, -, -, -, -, -, e5, e6⟩ := idx_facts ⟨(i 0).val / 5000, ht⟩
  intro a
  match a with
  | ⟨0, _⟩ =>
    show win0_3.index ⟨(i 0).val / 5000, ht⟩ 0 * 5000 ≤ (i 0).val
      ∧ (i 0).val < win0_3.index ⟨(i 0).val / 5000, ht⟩ 0 * 5000 + 5000
    rw [e5]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val
      ∧ (i 1).val < win0_3.index ⟨(i 0).val / 5000, ht⟩ 1 * 64 + 64
    rw [e6]; omega

/-- The output array when the region is left. -/
theorem final (c : Dev nD) :
    (dat0 V c).arrAt 3 cfg0.N = E (V c main_arg0) (V c main_arg2) (V c main_v18) :=
  (dat0 V c).arrAt_eq_of_cover 3 (E (V c main_arg0) (V c main_arg2) (V c main_v18)) (fun t _ => flushed_eq V c t) cover

end Cert.KernelIdeal.Linear

end
-- ==== Proof.HostStretches.lean ====
/-
  What the idealized kernel program's host stretches compute from ANY contents `Wx` of the buffers at a stretch's entry.

  The stretches before the first kernel region turn the edge list into the message rows (`row`: sources then every node
  once), the message columns (`col`: destinations then every node once), the message weights (`ew`: 1 for an edge that
  is not a loop, 0 for a loop, 1 for the added self-messages), the degrees (the weights summed per destination) and the
  normalisation `δ = if 0 < deg then 1/√deg else 0`, and reshape `δ` to a column. They are the same operations, on the
  same argument, as the first lines of the reference program: each buffer's contents is that program's stage function
  of the edge list. The stretch between the two kernel regions takes, for every message, the row of the first region's
  output numbered by the message's (normalised) source, scales it by the message's weight, and adds the scaled rows into
  the rows numbered by the messages' destinations; it also reshapes `δ` to a column again. No stretch writes an argument.
-/
import proofs.«160179_j59012850647685_2_alg».proof.Proof.Gen.KernelIdeal.Frame
import proofs.«160179_j59012850647685_2_alg».proof.Proof.RefRead
import Idealize.ShloMosaic.Lib.StableHlo.Run
import Idealize.ShloMosaic.Lib.Pipeline.Value
import Idealize.ShloMosaic.PureOps.Ideal

set_option maxRecDepth 16384

noncomputable section

open Idealize.ShloMosaic Idealize.ShloMosaic.TcCoe Idealize.SL.Sem Idealize.ShloMosaic.StableHlo

namespace Cert.KernelIdeal.HostStretches

open Cert.KernelIdeal Cert.KernelIdeal.Gen
open Cert.ReferenceIdeal.Read (val_main_v7 val_main_v8 val_main_v10 val_main_v17)

variable (Wx : Valuation τ sig (Elt Ideal))

/-! ## The three stretches before the first region, composed -/

/-- The contents the first region is entered with, from the launch contents `Wx`. -/
abbrev entry0 : Valuation τ sig (Elt Ideal) :=
  StableHlo.after hostOps0_2 (StableHlo.after hostOps0_1 (StableHlo.after hostOps0 Wx))

set_option maxHeartbeats 4000000 in
/-- The messages' sources are the reference's. -/
theorem entry0_row : (entry0 Wx (Proc.devRef .tc main_v7) : S1100000.Idx → BitVec 32)
    = val_main_v7 (F := Ideal) (Wx (Proc.devRef .tc main_arg1)) := by
  show StableHlo.after hostOps0_2 (StableHlo.after hostOps0_1 (StableHlo.after hostOps0 Wx)) _ = _
  after_results_simp
  rfl

set_option maxHeartbeats 4000000 in
/-- The messages' destinations are the reference's. -/
theorem entry0_col : (entry0 Wx (Proc.devRef .tc main_v8) : S1100000.Idx → BitVec 32)
    = val_main_v8 (F := Ideal) (Wx (Proc.devRef .tc main_arg1)) := by
  show StableHlo.after hostOps0_2 (StableHlo.after hostOps0_1 (StableHlo.after hostOps0 Wx)) _ = _
  after_results_simp
  rfl

set_option maxHeartbeats 4000000 in
/-- The messages' weights are the reference's. -/
theorem entry0_weight : (entry0 Wx (Proc.devRef .tc main_v10) : S1100000.Idx → EReal)
    = val_main_v10 (F := Ideal) (Wx (Proc.devRef .tc main_arg1)) := by
  show StableHlo.after hostOps0_2 (StableHlo.after hostOps0_1 (StableHlo.after hostOps0 Wx)) _ = _
  after_results_simp
  rfl

/-! The normalisation goes through the small called function, so it is read one stretch at a time. -/

open Cert.ReferenceIdeal.Read (val_main_v15 val_main_v16 val_main_cst_2) in
set_option maxHeartbeats 4000000 in
/-- The first stretch's degree test is the reference's. -/
theorem first_positive : (StableHlo.after hostOps0 Wx (Proc.devRef .tc main_v15) : S100000.Idx → BitVec 1)
    = Cert.ReferenceIdeal.Read.val_main_v15 (F := Ideal) (Wx (Proc.devRef .tc main_arg1)) := by
  after_results_simp
  rfl

set_option maxHeartbeats 4000000 in
/-- The first stretch's inverse square root of the degrees is the reference's. -/
theorem first_rsqrt : (StableHlo.after hostOps0 Wx (Proc.devRef .tc main_v16) : S100000.Idx → EReal)
    = Cert.ReferenceIdeal.Read.val_main_v16 (F := Ideal) (Wx (Proc.devRef .tc main_arg1)) := by
  after_results_simp
  rfl

set_option maxHeartbeats 4000000 in
/-- The first stretch's zero is the reference's. -/
theorem first_zero : (StableHlo.after hostOps0 Wx (Proc.devRef .tc main_cst_2) : S_.Idx → EReal)
    = Cert.ReferenceIdeal.Read.val_main_cst_2 (F := Ideal) := by
  after_results_simp
  rfl

/-- The called function selects the normalisation from the test, the inverse square root and zero. -/
theorem second_dis : (StableHlo.after hostOps0_1 Wx (Proc.devRef .tc main_v17) : S100000.Idx → EReal)
    = select (Wx (Proc.devRef .tc main_v15) : S100000.Idx → BitVec 1) (Wx (Proc.devRef .tc main_v16) : S100000.Idx → EReal)
        (broadcastInDim S100000 ![] bcast_S_S100000 (id (Wx (Proc.devRef .tc main_cst_2) : S_.Idx → EReal))) := by
  after_results
  rfl

/-- The reshape before the first region leaves the normalisation … -/
theorem third_keeps_dis : (StableHlo.after hostOps0_2 Wx (Proc.devRef .tc main_v17) : S100000.Idx → EReal)
    = Wx (Proc.devRef .tc main_v17) := by
  after_results

/-- … and writes it as a column. -/
theorem third_column : (StableHlo.after hostOps0_2 Wx (Proc.devRef .tc main_v18) : S100000x1.Idx → EReal)
    = shapeCast S100000x1 (Wx (Proc.devRef .tc main_v17) : S100000.Idx → EReal) shapeCasts_S100000_S100000x1 := by
  after_results
  rfl

/-- The degree normalisation is the reference's. -/
theorem entry0_dis : (entry0 Wx (Proc.devRef .tc main_v17) : S100000.Idx → EReal)
    = val_main_v17 (F := Ideal) (Wx (Proc.devRef .tc main_arg1)) := by
  show StableHlo.after hostOps0_2 (StableHlo.after hostOps0_1 (StableHlo.after hostOps0 Wx)) _ = _
  rw [third_keeps_dis, second_dis, first_positive, first_rsqrt, first_zero]
  rfl

/-- The column the first region reads is the reference's normalisation, reshaped. -/
theorem entry0_column : (entry0 Wx (Proc.devRef .tc main_v18) : S100000x1.Idx → EReal)
    = shapeCast S100000x1 (val_main_v17 (F := Ideal) (Wx (Proc.devRef .tc main_arg1))) shapeCasts_S100000_S100000x1 := by
  show StableHlo.after hostOps0_2 (StableHlo.after hostOps0_1 (StableHlo.after hostOps0 Wx)) _ = _
  rw [third_column, second_dis, first_positive, first_rsqrt, first_zero]
  rfl

/-- The stretches write no argument. -/
theorem entry0_x : (entry0 Wx (Proc.devRef .tc main_arg0) : S100000x64.Idx → EReal) = Wx (Proc.devRef .tc main_arg0) := by
  show StableHlo.after hostOps0_2 (StableHlo.after hostOps0_1 (StableHlo.after hostOps0 Wx)) _ = _
  after_results_simp
theorem entry0_w : (entry0 Wx (Proc.devRef .tc main_arg2) : S64x64.Idx → EReal) = Wx (Proc.devRef .tc main_arg2) := by
  show StableHlo.after hostOps0_2 (StableHlo.after hostOps0_1 (StableHlo.after hostOps0 Wx)) _ = _
  after_results_simp
theorem entry0_bias : (entry0 Wx (Proc.devRef .tc main_arg3) : S64.Idx → EReal) = Wx (Proc.devRef .tc main_arg3) := by
  show StableHlo.after hostOps0_2 (StableHlo.after hostOps0_1 (StableHlo.after hostOps0 Wx)) _ = _
  after_results_simp

/-! ## The stretch between the two regions -/

set_option maxHeartbeats 4000000 in
/-- The aggregate: every message's row of the first region's output (`main_v19`), taken at the message's normalised
    source, scaled by the message's weight, and added into the row numbered by the message's destination. -/
theorem between_aggregate : (StableHlo.after hostOps1 Wx (Proc.devRef .tc main_v33) : S100000x64.Idx → EReal)
    = Host.scatterAdd (F := Ideal) (φ := .f32) scatter_S100000x64_S1100000x1_S1100000x64_1_0_0_1
        (broadcastInDim S100000x64 ![] bcast_S_S100000x64 (constant (F := Ideal) S_ .f32 0x00000000#32))
        (broadcastInDim S1100000x1 ![0] bcast_S1100000_S1100000x1_0 (Wx (Proc.devRef .tc main_v8) : S1100000.Idx → BitVec 32))
        (mulf (F := Ideal) (φ := .f32)
          (broadcastInDim S1100000x64 ![0, 1] bcast_S1100000x1_S1100000x64_0_1
            (broadcastInDim S1100000x1 ![0] bcast_S1100000_S1100000x1_0 (Wx (Proc.devRef .tc main_v10) : S1100000.Idx → EReal)))
          (extf (F := Ideal) .f32
            (Host.gather gather_S100000x64_S1100000x1_S1100000x64_1_0_n_n_0_1_164
              (Wx (Proc.devRef .tc main_v19) : FVec Ideal S100000x64 .bf16)
              (broadcastInDim S1100000x1 ![0] bcast_S1100000_S1100000x1_0
                (select
                  (cmpi .slt (Wx (Proc.devRef .tc main_v7) : S1100000.Idx → BitVec 32)
                    (broadcastInDim S1100000 ![] bcast_S_S1100000 (constantI S_ 32 0#32)))
                  (addi (Wx (Proc.devRef .tc main_v7) : S1100000.Idx → BitVec 32)
                    (broadcastInDim S1100000 ![] bcast_S_S1100000 (constantI S_ 32 100000#32)))
                  (Wx (Proc.devRef .tc main_v7) : S1100000.Idx → BitVec 32))))
            bitsLt_bf16_f32)) := by
  after_results_simp
  try rfl

/-- The column the second region reads is the normalisation the stretch finds, reshaped. -/
theorem between_column : (StableHlo.after hostOps1 Wx (Proc.devRef .tc main_v34) : S100000x1.Idx → EReal)
    = shapeCast S100000x1 (Wx (Proc.devRef .tc main_v17) : S100000.Idx → EReal) shapeCasts_S100000_S100000x1 := by
  after_results_simp
  try rfl

/-- The stretch does not write the bias. -/
theorem between_keeps_bias : (StableHlo.after hostOps1 Wx (Proc.devRef .tc main_arg3) : S64.Idx → EReal)
    = Wx (Proc.devRef .tc main_arg3) := by
  after_results_simp

end Cert.KernelIdeal.HostStretches

end
-- ==== Proof.KernelValue.lean ====
/-
  The idealized kernel program's result as one function of its four arguments.

  Put together from the run with the result named, the two regions' whole-array functions and the host stretches:
  with `δ` the degree normalisation of the edge list (a function of the edge list alone, the same stages as the
  reference's), `row`, `col`, `ew` the messages' sources, destinations and weights,
      P[r, q]  = (∑ₖ X[r, k] · W[q, k]) · δ[r]                          (first region)
      A        = the rows `ew[e] · P[src e, ·]` added into the rows `col e`    (host stretch between the regions)
      out[r, q] = A[r, q] · δ[r] + bias[q]                               (second region).
-/
import proofs.«160179_j59012850647685_2_alg».proof.Proof.KernelRun
import proofs.«160179_j59012850647685_2_alg».proof.Proof.EpilogueValue
import proofs.«160179_j59012850647685_2_alg».proof.Proof.LinearValue
import proofs.«160179_j59012850647685_2_alg».proof.Proof.HostStretches

set_option maxRecDepth 16384

noncomputable section

open Idealize.ShloMosaic Idealize.ShloMosaic.TcCoe Idealize.SL.Sem

namespace Cert.KernelIdeal.KernelValue

open Cert.KernelIdeal Cert.KernelIdeal.Gen
open Cert.ReferenceIdeal.Read (val_main_v7 val_main_v8 val_main_v10 val_main_v17)

section Functions

variable (x0 : S100000x64.Idx → EReal) (x1 : S2x1000000.Idx → BitVec 32) (x2 : S64x64.Idx → EReal) (x3 : S64.Idx → EReal)

/-- The degree normalisation laid as a column. -/
def column : S100000x1.Idx → EReal :=
  shapeCast S100000x1 (val_main_v17 (F := Ideal) x1) shapeCasts_S100000_S100000x1

/-- The first region's output: the projected rows, each scaled by its node's normalisation. -/
def projected : S100000x64.Idx → EReal := Cert.KernelIdeal.Linear.E x0 x2 (column x1)

/-- The weighted rows the messages carry: message `e` carries `ew[e]` times the projected row of its source. -/
def messages : S1100000x64.Idx → EReal :=
  mulf (F := Ideal) (φ := .f32)
    (broadcastInDim S1100000x64 ![0, 1] bcast_S1100000x1_S1100000x64_0_1
      (broadcastInDim S1100000x1 ![0] bcast_S1100000_S1100000x1_0 (val_main_v10 (F := Ideal) x1)))
    (extf (F := Ideal) .f32
      (Host.gather gather_S100000x64_S1100000x1_S1100000x64_1_0_n_n_0_1_164 (projected x0 x1 x2 : FVec Ideal S100000x64 .bf16)
        (broadcastInDim S1100000x1 ![0] bcast_S1100000_S1100000x1_0
          (select
            (cmpi .slt (val_main_v7 (F := Ideal) x1) (broadcastInDim S1100000 ![] bcast_S_S1100000 (constantI S_ 32 0#32)))
            (addi (val_main_v7 (F := Ideal) x1) (broadcastInDim S1100000 ![] bcast_S_S1100000 (constantI S_ 32 100000#32)))
            (val_main_v7 (F := Ideal) x1))))
      bitsLt_bf16_f32)

/-- The aggregate: the messages' rows added into the rows of their destinations. -/
def aggregate : S100000x64.Idx → EReal :=
  Host.scatterAdd (F := Ideal) (φ := .f32) scatter_S100000x64_S1100000x1_S1100000x64_1_0_0_1
    (broadcastInDim S100000x64 ![] bcast_S_S100000x64 (constant (F := Ideal) S_ .f32 0x00000000#32))
    (broadcastInDim S1100000x1 ![0] bcast_S1100000_S1100000x1_0 (val_main_v8 (F := Ideal) x1))
    (messages x0 x1 x2)

/-- The program's result. -/
def result : S100000x64.Idx → EReal := Cert.KernelIdeal.Epilogue.E (aggregate x0 x1 x2) (column x1) x3

end Functions

variable (m : (ℓ : Loc nD τ sig) → Buf (Elt Ideal) ℓ) (ρ : Dev nD → PrngReg)

/-- The result array at the return is `result` of the four argument arrays as launched. -/
theorem result_eq (c : Dev nD) :
    (W6 m ρ c (Proc.devRef .tc main_v35) : S100000x64.Idx → EReal)
      = result (m ((c.tc : Thread nD τ).loc main_arg0)) (m ((c.tc : Thread nD τ).loc main_arg1))
          (m ((c.tc : Thread nD τ).loc main_arg2)) (m ((c.tc : Thread nD τ).loc main_arg3)) := by
  -- the buffers the first region is entered with
  have hx : (V3 m ρ c main_arg0 : S100000x64.Idx → EReal) = m ((c.tc : Thread nD τ).loc main_arg0) :=
    HostStretches.entry0_x (W0 m ρ c)
  have hw : (V3 m ρ c main_arg2 : S64x64.Idx → EReal) = m ((c.tc : Thread nD τ).loc main_arg2) :=
    HostStretches.entry0_w (W0 m ρ c)
  have hc : (V3 m ρ c main_v18 : S100000x1.Idx → EReal) = column (m ((c.tc : Thread nD τ).loc main_arg1)) :=
    HostStretches.entry0_column (W0 m ρ c)
  -- the buffers the stretch between the regions reads
  have e19 : (W4 m ρ c (Proc.devRef .tc main_v19) : S100000x64.Idx → EReal)
      = projected (m ((c.tc : Thread nD τ).loc main_arg0)) (m ((c.tc : Thread nD τ).loc main_arg1)) (m ((c.tc : Thread nD τ).loc main_arg2)) :=
    (W4_arr m ρ c 3).trans ((Cert.KernelIdeal.Linear.final (V3 m ρ) c).trans
      (congr (congr (congrArg Cert.KernelIdeal.Linear.E hx) hw) hc))
  have e7 : (W4 m ρ c (Proc.devRef .tc main_v7) : S1100000.Idx → BitVec 32)
      = val_main_v7 (F := Ideal) (m ((c.tc : Thread nD τ).loc main_arg1)) :=
    (W4_of_ne m ρ c main_v7 (by decide)).trans (HostStretches.entry0_row (W0 m ρ c))
  have e8 : (W4 m ρ c (Proc.devRef .tc main_v8) : S1100000.Idx → BitVec 32)
      = val_main_v8 (F := Ideal) (m ((c.tc : Thread nD τ).loc main_arg1)) :=
    (W4_of_ne m ρ c main_v8 (by decide)).trans (HostStretches.entry0_col (W0 m ρ c))
  have e10 : (W4 m ρ c (Proc.devRef .tc main_v10) : S1100000.Idx → EReal)
      = val_main_v10 (F := Ideal) (m ((c.tc : Thread nD τ).loc main_arg1)) :=
    (W4_of_ne m ρ c main_v10 (by decide)).trans (HostStretches.entry0_weight (W0 m ρ c))
  have e17 : (W4 m ρ c (Proc.devRef .tc main_v17) : S100000.Idx → EReal)
      = val_main_v17 (F := Ideal) (m ((c.tc : Thread nD τ).loc main_arg1)) :=
    (W4_of_ne m ρ c main_v17 (by decide)).trans (HostStretches.entry0_dis (W0 m ρ c))
  have e3 : (W4 m ρ c (Proc.devRef .tc main_arg3) : S64.Idx → EReal) = m ((c.tc : Thread nD τ).loc main_arg3) :=
    (W4_of_ne m ρ c main_arg3 (by decide)).trans (HostStretches.entry0_bias (W0 m ρ c))
  -- the buffers the second region is entered with
  have h33 : (V5 m ρ c main_v33 : S100000x64.Idx → EReal)
      = aggregate (m ((c.tc : Thread nD τ).loc main_arg0)) (m ((c.tc : Thread nD τ).loc main_arg1)) (m ((c.tc : Thread nD τ).loc main_arg2)) := by
    refine (HostStretches.between_aggregate (W4 m ρ c)).trans ?_
    rw [e7, e8, e10, e19]
    rfl
  have h34 : (V5 m ρ c main_v34 : S100000x1.Idx → EReal) = column (m ((c.tc : Thread nD τ).loc main_arg1)) := by
    refine (HostStretches.between_column (W4 m ρ c)).trans ?_
    rw [e17]
    rfl
  have h3 : (V5 m ρ c main_arg3 : S64.Idx → EReal) = m ((c.tc : Thread nD τ).loc main_arg3) :=
    (HostStretches.between_keeps_bias (W4 m ρ c)).trans e3
  exact (Cert.KernelIdeal.Result.W6_result m ρ c).trans ((Cert.KernelIdeal.Epilogue.final (V5 m ρ) c).trans
    (congr (congr (congrArg Cert.KernelIdeal.Epilogue.E h33) h34) h3))

end Cert.KernelIdeal.KernelValue

end
-- ==== Proof.LibRowGatherScatter.lean ====
/-
  Rows taken and rows added, read at coordinates.

  `x[idx]` of a flat array `[N]` and of a matrix `[N, D]` at a column `[M, 1]` of integer row numbers (a gather that
  collapses axis 0): element `e` (row `e`) of the result is the operand's element (row) whose number is the word
  `idx[e, 0]` read signed and clamped into `[0, N − 1]`.
  A scatter-add of `M` rows of width `D` into the rows of an `[N, D]` array at row numbers `idx : [M, 1]`: update
  element `(e, d')` lands on `(n, d)` only if the word `idx[e, 0]`, read signed and NOT clamped, is `n`, and `d' = d`.
  Hence: on a row that an update lands on, taking row `idx[e, 0]` (after the usual "add N to a negative number"
  normalisation) of any array gives row `n` of it.
  All at any extents; the dimension numbers' conditions are a hypothesis, decided on a program's literal shapes.
-/
import Idealize.ShloMosaic.Lib.ValueIdx
import Idealize.ShloMosaic.PureOps.ShapeOps

noncomputable section

open Idealize.ShloMosaic Idealize.ShloMosaic.ValueIdx

namespace Cert.Lib.RowGatherScatter

variable {α : Type}

/-! ## Taking elements of a flat array -/

/-- The dimension numbers of `x[idx]` for `x : [N]`, `idx : [M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Element `e` of `x[idx]` is `x` at the word `idx[e, 0]` read signed and clamped into `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (flatDims N M wf).start (ix1 e) idx 0 + (flatDims N M wf).batchCoord (ix1 e) 0 + (flatDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 e) ⟨List.idxOf (0 : Fin 1) (flatDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Taking rows of a matrix -/

/-- The dimension numbers of `x[idx]` for `x : [N, D]`, `idx : [M, 1]`, result `[M, D]`. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, d)` of `x[idx]` is `x` at row `idx[e, 0]` (read signed, clamped into `[0, N − 1]`), column `d`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (rowDims N D M wf) x idx (ix2 e d)
      = x (ix2 ⟨min (idx (ix2 e (0 : Fin 1))).toInt.toNat (N - 1), by omega⟩ d) := by
  unfold Host.gather
  congr 1
  funext a
  refine Fin.ext ?_
  match a with
  | ⟨0, _⟩ =>
    show (rowDims N D M wf).start (ix2 e d) idx 0 + (rowDims N D M wf).batchCoord (ix2 e d) 0
      + (rowDims N D M wf).offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e d) ⟨List.idxOf (0 : Fin 2) (rowDims N D M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D M wf).start (ix2 e d) idx 1 + (rowDims N D M wf).batchCoord (ix2 e d) 1
      + (rowDims N D M wf).offCoord (ix2 e d) 1 = d.val
    have h1 : (rowDims N D M wf).start (ix2 e d) idx 1 = 0 := by
      unfold GatherDims.start; exact dif_neg (show (1 : Fin 2) ∉ ([0] : List (Fin 2)) from by decide)
    have h3 : (rowDims N D M wf).offCoord (ix2 e d) 1 = d.val := rfl
    rw [h1, GatherDims.batchCoord_eq_zero _ _ _ List.not_mem_nil, h3]
    omega

/-! ## Adding rows into a matrix -/

/-- The dimension numbers of `x.at[idx].add(u)` (a row-wise segment sum) for `x : [N, D]`, `idx : [M, 1]`, `u : [M, D]`. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- An update entry `(e, d')` lands on `(n, d)` only if the row number `idx[e, 0]`, read signed, is `n`, and `d' = d`. -/
theorem scatter_rows_hit {N D M w : Nat} (wf : ScatterDims.WF ⟨2, ![N, D]⟩ ⟨2, ![M, 1]⟩ ⟨2, ![M, D]⟩ [1] [0] [0] 1)
    (idx : IVec ⟨2, ![M, 1]⟩ w) (e : Fin M) (d' : Fin D) (n : Fin N) (d : Fin D)
    (h : (rowAddDims N D M wf).resultIdx? (ix2 e d') idx = some (ix2 n d)) :
    (idx (ix2 e (0 : Fin 1))).toInt = (n.val : Int) ∧ d' = d := by
  unfold ScatterDims.resultIdx? at h
  split at h
  · rename_i hin
    have hf := Option.some.inj h
    have h0 : ((rowAddDims N D M wf).start (ix2 e d') idx 0 + ((rowAddDims N D M wf).window (ix2 e d') 0 : Int)).toNat = n.val :=
      congrArg (fun f => (f 0).val) hf
    have h1 : ((rowAddDims N D M wf).start (ix2 e d') idx 1 + ((rowAddDims N D M wf).window (ix2 e d') 1 : Int)).toNat = d.val :=
      congrArg (fun f => (f 1).val) hf
    have g0 := (hin 0).1
    have hs0 : (rowAddDims N D M wf).start (ix2 e d') idx 0 = (idx (ix2 e (0 : Fin 1))).toInt := by
      unfold ScatterDims.start
      rw [dif_pos (show (0 : Fin 2) ∈ (rowAddDims N D M wf).scatterDimsToOperandDims from List.mem_singleton.mpr rfl)]
      have hsi : (rowAddDims N D M wf).siIdx (ix2 e d') ⟨List.idxOf (0 : Fin 2) (rowAddDims N D M wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw0 : (rowAddDims N D M wf).window (ix2 e d') 0 = 0 := rfl
    have hs1 : (rowAddDims N D M wf).start (ix2 e d') idx 1 = 0 := by
      unfold ScatterDims.start; exact dif_neg (show (1 : Fin 2) ∉ ([0] : List (Fin 2)) from by decide)
    have hw1 : (rowAddDims N D M wf).window (ix2 e d') 1 = d'.val := rfl
    rw [hs0, hw0] at h0 g0
    rw [hs1, hw1] at h1
    refine ⟨by omega, Fin.ext (by omega)⟩
  · exact absurd h (by simp)

/-! ## A row number that a scatter accepts is taken unchanged by a gather -/

/-- A 32-bit row number that reads signed as `n < N` (so it is not negative) is left alone by the normalisation
    "if negative add `N`", and the gather's clamp gives `n`. -/
theorem normalised_row {N : Nat} (c : BitVec 32) (Nw : BitVec 32) (n : Fin N) (hc : c.toInt = (n.val : Int)) :
    min (Scalar.select (IntOp.cmpi .slt c 0#32) (IntOp.addi c Nw) c).toInt.toNat (N - 1) = n.val := by
  have hslt : IntOp.cmpi .slt c 0#32 = 0#1 := by
    have : c.slt 0#32 = false := by
      rw [BitVec.slt_eq_decide]
      simp only [BitVec.toInt_zero, decide_eq_false_iff_not, not_lt]
      omega
    simp [IntOp.cmpi, this]
  rw [hslt, select_zero, hc]
  have := n.isLt
  omega

end Cert.Lib.RowGatherScatter

end
-- ==== Proof.LibNonnegScale.lean ====
/-
  Facts about the extended reals that let a degree normalisation be moved across a sum.

  * Multiplying by a NONNEGATIVE REAL distributes over every finite sum of extended reals, whatever the summands are
    (infinite ones included): `(∑ f) * r = ∑ (f * r)`. (For a general factor this fails: `(⊤ + ⊥) * (-1)`.)
  * Hence a host scatter-add (each element plus the sum of the updates that land on it) from a zero operand, scaled by a
    nonnegative real after the sum, is the scatter-add of the updates scaled before it.
  * The inverse square root guarded by a positivity test, `if 0 < z then 1/√z else 0`, is a nonnegative real for EVERY
    extended real `z`: at `⊤` the inverse square root is `0`, at a positive real it is a positive real, and everywhere
    else the guard gives `0`.
-/
import Idealize.ShloMosaic.PureOps.Ideal
import Idealize.ShloMosaic.Lib.ValueIdx

noncomputable section

open Idealize.ShloMosaic

namespace Cert.Lib.NonnegScale

/-- A nonnegative real factor distributes over the sum of two extended reals. -/
theorem add_mul_coe {r : ℝ} (hr : 0 ≤ r) (y z : EReal) : (y + z) * (r : EReal) = y * (r : EReal) + z * (r : EReal) :=
  EReal.right_distrib_of_nonneg_of_ne_top (by exact_mod_cast hr) (EReal.coe_ne_top r) y z

/-- A nonnegative real factor distributes over a finite sum of extended reals. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih => rw [Finset.sum_insert ha, Finset.sum_insert ha, add_mul_coe hr, ih]

/-- A host scatter-add from a zero operand, scaled by a nonnegative real AFTER the sum, is the scatter-add of updates
    scaled BEFORE it: it is enough that each update landing on the element, times the factor, is the other update. -/
theorem scatterAdd_mul_coe {s si su : Shape} (sd : ScatterDims s si su) {w : Nat} (z : s.Idx → EReal) (idx : IVec si w)
    (u u' : su.Idx → EReal) (i : s.Idx) {r : ℝ} (hr : 0 ≤ r) (hz : z i = 0)
    (h : ∀ j, sd.resultIdx? j idx = some i → u j * (r : EReal) = u' j) :
    Ideal.hostScatterAdd sd z idx u i * (r : EReal) = Ideal.hostScatterAdd sd z idx u' i := by
  unfold Ideal.hostScatterAdd
  rw [hz, zero_add, zero_add, sum_mul_coe _ _ hr]
  exact Finset.sum_congr rfl fun j hj => h j (Finset.mem_filter.mp hj).2

/-- The guarded inverse square root `if 0 < z then 1/√z else 0`, as a host program spells it (a comparison word, the
    inverse square root, a select against zero), is a nonnegative real at every extended real `z`. -/
theorem guarded_rsqrt_nonneg_real (z : EReal) :
    ∃ r : ℝ, 0 ≤ r ∧ Scalar.select (Ideal.cmp .ogt z 0) (Ideal.rsqrt z) (0 : EReal) = (r : EReal) := by
  induction z using EReal.rec with
  | bot =>
    refine ⟨0, le_refl _, ?_⟩
    have : Ideal.cmp .ogt (⊥ : EReal) 0 = 0#1 := by simp [Ideal.cmp]
    rw [this, ValueIdx.select_zero]; rfl
  | top =>
    refine ⟨0, le_refl _, ?_⟩
    have : Ideal.cmp .ogt (⊤ : EReal) 0 = 1#1 := by simp [Ideal.cmp]
    rw [this, ValueIdx.select_one, Ideal.rsqrt_top]; rfl
  | coe x =>
    by_cases hx : 0 < x
    · refine ⟨(Real.sqrt x)⁻¹, inv_nonneg.mpr (Real.sqrt_nonneg x), ?_⟩
      have : Ideal.cmp .ogt (x : EReal) 0 = 1#1 := by
        simp only [Ideal.cmp]
        rw [decide_eq_true (by exact_mod_cast hx)]; rfl
      rw [this, ValueIdx.select_one, Ideal.rsqrt_coe, if_neg (not_lt.mpr hx.le), if_neg hx.ne']
    · refine ⟨0, le_refl _, ?_⟩
      have : Ideal.cmp .ogt (x : EReal) 0 = 0#1 := by
        simp only [Ideal.cmp]
        rw [decide_eq_false (by exact_mod_cast hx)]; rfl
      rw [this, ValueIdx.select_zero]; rfl

end Cert.Lib.NonnegScale

end
-- ==== Proof.RefValue.lean ====
/-
  The reference program read at one entry `(n, d)` of its result.

  With `row`, `col`, `ew` the messages' (normalised) sources, destinations and weights, `δ` the degree normalisation and
  `H = X · Wᵀ`, the reference forms for every message `e` and column `d'` the update
  `((δ[src e] · ew[e]) · δ[dst e]) · H[src e, d']` — `src e` and `dst e` the message's source and destination read signed,
  after "add N if negative", and clamped into the node range, as a gather reads them — and adds the updates into a zero
  array at the rows numbered by the messages' destinations (read signed, NOT clamped: an update outside the node range
  is dropped), then adds the bias. Two facts about it are kept for the comparison with the kernel:
    • an update that lands on row `n` has `dst e = n` (a row number the scatter accepts is not negative and is in
      range, so neither the normalisation nor the clamp moves it);
    • `δ[n]` is a nonnegative real for every node `n`, whatever the degrees are.
-/
import proofs.«160179_j59012850647685_2_alg».proof.Proof.RefRead
import proofs.«160179_j59012850647685_2_alg».proof.Proof.LibRowGatherScatter
import proofs.«160179_j59012850647685_2_alg».proof.Proof.LibNonnegScale
import Idealize.ShloMosaic.PureOps.Ideal.Laws

set_option maxRecDepth 16384

noncomputable section

open Idealize.ShloMosaic Idealize.ShloMosaic.ValueIdx

namespace Cert.ReferenceIdeal.RefValue

open Cert.ReferenceIdeal Cert.ReferenceIdeal.Gen Cert.ReferenceIdeal.Read
open Cert.Lib.RowGatherScatter

variable (x0 : (⟨S100000x64, .f32⟩ : BufTy).Contents (Elt Ideal)) (x1 : (⟨S2x1000000, .i32⟩ : BufTy).Contents (Elt Ideal))
  (x2 : (⟨S64x64, .f32⟩ : BufTy).Contents (Elt Ideal)) (x3 : (⟨S64, .f32⟩ : BufTy).Contents (Elt Ideal))

/-- The printed dimension numbers are the ones the row lemmas are stated for. -/
theorem flat_dims : gather_S100000_S1100000x1_S1100000_n_0_n_n_0_1_1
    = flatDims 100000 1100000 gather_S100000_S1100000x1_S1100000_n_0_n_n_0_1_1_wf := rfl
theorem row_dims : gather_S100000x64_S1100000x1_S1100000x64_1_0_n_n_0_1_164
    = rowDims 100000 64 1100000 gather_S100000x64_S1100000x1_S1100000x64_1_0_n_n_0_1_164_wf := rfl
theorem add_dims : scatter_S100000x64_S1100000x1_S1100000x64_1_0_0_1
    = rowAddDims 100000 64 1100000 scatter_S100000x64_S1100000x1_S1100000x64_1_0_0_1_wf := rfl

/-- The node whose row message `e` takes: its normalised source, read signed and clamped. -/
def src (e : Fin 1100000) : Fin 100000 :=
  ⟨min (val_main_v42 (F := Ideal) x1 (ix2 e (0 : Fin 1))).toInt.toNat (100000 - 1), by omega⟩
/-- The node whose normalisation message `e` takes on the destination side: its normalised destination, clamped. -/
def dst (e : Fin 1100000) : Fin 100000 :=
  ⟨min (val_main_v31 (F := Ideal) x1 (ix2 e (0 : Fin 1))).toInt.toNat (100000 - 1), by omega⟩

/-- The two normalised-source columns of the reference (it computes the normalisation twice) are one function. -/
theorem src_twice : val_main_v23 (F := Ideal) x1 = val_main_v42 (F := Ideal) x1 := rfl

/-- The update of message `e` at column `d'`. -/
theorem ref_msg (e : Fin 1100000) (d' : Fin 64) :
    val_main_v45 (F := Ideal) x0 x1 x2 (ix2 e d')
      = ((val_main_v17 (F := Ideal) x1 (ix1 (src x1 e)) * val_main_v10 (F := Ideal) x1 (ix1 e))
          * val_main_v17 (F := Ideal) x1 (ix1 (dst x1 e))) * val_main_v35 (F := Ideal) x0 x2 (ix2 (src x1 e) d') := by
  rw [val_main_v45_apply, val_main_v44_apply, val_main_v36_apply, val_main_v33_apply, val_main_v25_apply]
  have hi : idx_main_v36 (idx_main_v44 (ix2 e d')) = ix1 e := funext fun a => Fin.ext (by match a with | ⟨0, _⟩ => rfl)
  rw [hi]
  have g24 : val_main_v24 (F := Ideal) x1 (ix1 e) = val_main_v17 (F := Ideal) x1 (ix1 (src x1 e)) := by
    unfold val_main_v24
    rw [flat_dims, src_twice]
    exact gather_flat_apply (by decide) _ _ _ e
  have g32 : val_main_v32 (F := Ideal) x1 (ix1 e) = val_main_v17 (F := Ideal) x1 (ix1 (dst x1 e)) := by
    unfold val_main_v32
    rw [flat_dims]
    exact gather_flat_apply (by decide) _ _ _ e
  have g43 : val_main_v43 (F := Ideal) x0 x1 x2 (ix2 e d') = val_main_v35 (F := Ideal) x0 x2 (ix2 (src x1 e) d') := by
    unfold val_main_v43
    rw [row_dims]
    exact gather_rows_apply (by decide) _ _ _ e d'
  rw [g24, g32, g43]
  simp only [Ideal.mulf_def]

/-- An update that lands on row `n` takes its destination-side normalisation from node `n`. -/
theorem hit_dst (e : Fin 1100000) (d' : Fin 64) (n : Fin 100000) (d : Fin 64)
    (h : scatter_S100000x64_S1100000x1_S1100000x64_1_0_0_1.resultIdx? (ix2 e d') (val_main_v47 (F := Ideal) x1)
      = some (ix2 n d)) : dst x1 e = n := by
  rw [add_dims] at h
  obtain ⟨hc, -⟩ := scatter_rows_hit _ _ e d' n d h
  have h47 : val_main_v47 (F := Ideal) x1 (ix2 e (0 : Fin 1)) = val_main_v8 (F := Ideal) x1 (ix1 e) := by
    rw [val_main_v47_apply]
    exact congrArg _ (funext fun a => Fin.ext (by match a with | ⟨0, _⟩ => rfl))
  have h31 : val_main_v31 (F := Ideal) x1 (ix2 e (0 : Fin 1))
      = Scalar.select (IntOp.cmpi .slt (val_main_v8 (F := Ideal) x1 (ix1 e)) 0#32)
          (IntOp.addi (val_main_v8 (F := Ideal) x1 (ix1 e)) 100000#32) (val_main_v8 (F := Ideal) x1 (ix1 e)) := by
    rw [val_main_v31_apply, val_main_v30_apply, val_main_v27_apply, val_main_v29_apply, val_main_v26_apply,
      val_main_v28_apply, val_main_c_4_apply, val_main_c_5_apply]
    have hi : idx_main_v31 (ix2 e (0 : Fin 1)) = ix1 e := funext fun a => Fin.ext (by match a with | ⟨0, _⟩ => rfl)
    rw [hi]
  rw [h47] at hc
  refine Fin.ext ?_
  show min (val_main_v31 (F := Ideal) x1 (ix2 e (0 : Fin 1))).toInt.toNat (100000 - 1) = n.val
  rw [h31]
  exact normalised_row _ _ n hc

/-- The degree normalisation of a node is a nonnegative real. -/
theorem dis_real (n : Fin 100000) : ∃ r : ℝ, 0 ≤ r ∧ val_main_v17 (F := Ideal) x1 (ix1 n) = (r : EReal) := by
  rw [val_main_v17_apply, val_main_v15_apply, val_main_v16_apply, val_main_v14_apply, val_main_cst_1_apply,
    val_main_call0_v1_apply, val_main_call0_v0_apply, val_main_cst_2_apply, Ideal.ofBits_def, Ideal.ofBits_zero_f32]
  -- the degree itself is never opened: the statement holds at every extended real
  generalize val_main_v13 (F := Ideal) x1 (ix1 n) = z
  exact Cert.Lib.NonnegScale.guarded_rsqrt_nonneg_real z

/-- The reference's result at `(n, d)`: the scatter-add of the updates at `(n, d)`, plus the bias's entry `d`. -/
theorem ref_apply (n : Fin 100000) (d : Fin 64) :
    val_main_v51 (F := Ideal) x0 x1 x2 x3 (ix2 n d)
      = Ideal.hostScatterAdd scatter_S100000x64_S1100000x1_S1100000x64_1_0_0_1 (val_main_v46 (F := Ideal))
          (val_main_v47 (F := Ideal) x1) (val_main_v45 (F := Ideal) x0 x1 x2) (ix2 n d) + x3 (ix1 d) := by
  rw [val_main_v51_apply, Ideal.addf_def, val_main_v50_apply, val_main_v49_apply]
  have hb : idx_main_v49 (idx_main_v50 (ix2 n d)) = ix1 d := funext fun a => Fin.ext (by match a with | ⟨0, _⟩ => rfl)
  rw [hb]
  have h48 : val_main_v48 (F := Ideal) x0 x1 x2
      = Ideal.hostScatterAdd scatter_S100000x64_S1100000x1_S1100000x64_1_0_0_1 (val_main_v46 (F := Ideal))
          (val_main_v47 (F := Ideal) x1) (val_main_v45 (F := Ideal) x0 x1 x2) := rfl
  rw [h48]

/-- The zero array the updates are added into is zero. -/
theorem zero_apply (i : S100000x64.Idx) : val_main_v46 (F := Ideal) i = 0 := by
  rw [val_main_v46_apply, val_main_cst_8_apply, Ideal.ofBits_def, Ideal.ofBits_zero_f32]

end Cert.ReferenceIdeal.RefValue

end
-- ==== Proof.Bridge.lean ====
/-
  The kernel program's result function is the reference program's.

  At entry `(n, d)` both are a sum over the messages `e` (and columns `d'`) whose update lands on `(n, d)` — the same
  set on both sides, the scatter's dimension numbers and row numbers being the same — plus `bias[d]`. With
  `a = δ[src e]`, `w = ew[e]`, `b = H[src e, d']` (`H = X · Wᵀ`), the reference adds `((a · w) · δ[dst e]) · b` and the
  kernel adds `w · (b · a)` and multiplies the SUM by `δ[n]`. An update that lands on row `n` has `dst e = n`, and
  `δ[n]` is a nonnegative real, which distributes over any finite sum of extended reals; the rest is the commutativity
  and associativity of the product. No finiteness of the inputs is used.
-/
import proofs.«160179_j59012850647685_2_alg».proof.Proof.KernelValue
import proofs.«160179_j59012850647685_2_alg».proof.Proof.RefValue
import proofs.«160179_j59012850647685_2_alg».proof.Proof.LibColumnLayout
import Idealize.ShloMosaic.Lib.Pipeline.Value

set_option maxRecDepth 16384

noncomputable section

open Idealize.ShloMosaic Idealize.ShloMosaic.ValueIdx

namespace Cert.Bridge

open Cert.ReferenceIdeal Cert.ReferenceIdeal.Gen Cert.ReferenceIdeal.Read Cert.ReferenceIdeal.RefValue
open Cert.KernelIdeal.KernelValue
open Cert.Lib.RowGatherScatter

variable (x0 : S100000x64.Idx → EReal) (x1 : S2x1000000.Idx → BitVec 32) (x2 : S64x64.Idx → EReal) (x3 : S64.Idx → EReal)

/-- The projection `H = X · Wᵀ` of the reference at `(s, q)`: row `s` of `X` against row `q` of `W`. -/
theorem hraw_apply (s : Fin 100000) (q : Fin 64) :
    val_main_v35 (F := Ideal) x0 x2 (ix2 s q) = ∑ k : Fin 64, x0 (ix2 s k) * x2 (ix2 q k) := by
  rw [val_main_v35_apply]
  refine Finset.sum_congr rfl fun k _ => ?_
  rw [val_main_v34_apply]
  have hl : lidx_main_v35 (ix2 s q) k = ix2 s k :=
    funext fun a => Fin.ext (by match a with | ⟨0, _⟩ => rfl | ⟨1, _⟩ => rfl)
  have hr : idx_main_v34 (ridx_main_v35 (ix2 s q) k) = ix2 q k :=
    funext fun a => Fin.ext (by match a with | ⟨0, _⟩ => rfl | ⟨1, _⟩ => rfl)
  rw [hl, hr]

/-- The normalisation column at row `n` is the normalisation of node `n`. -/
theorem column_apply (n : Fin 100000) : column x1 (ix2 n (0 : Fin 1)) = val_main_v17 (F := Ideal) x1 (ix1 n) :=
  Cert.ColumnLayout.shapeCast_a_a1_apply _ _ n 0

/-- The first region's output at `(s, q)`: the projection scaled by the node's normalisation. -/
theorem projected_apply (s : Fin 100000) (q : Fin 64) :
    projected x0 x1 x2 (ix2 s q) = val_main_v35 (F := Ideal) x0 x2 (ix2 s q) * val_main_v17 (F := Ideal) x1 (ix1 s) := by
  rw [hraw_apply, ← column_apply]
  rfl

/-- A message's weight, spread along the columns, read at `(e, d')`. -/
theorem weight_apply (y : S1100000.Idx → EReal) (e : Fin 1100000) (d' : Fin 64) :
    broadcastInDim Cert.KernelIdeal.S1100000x64 ![0, 1] Cert.KernelIdeal.Gen.bcast_S1100000x1_S1100000x64_0_1
      (broadcastInDim Cert.KernelIdeal.S1100000x1 ![0] Cert.KernelIdeal.Gen.bcast_S1100000_S1100000x1_0 y) (ix2 e d')
      = y (ix1 e) := by
  refine (broadcastInDim_apply _ Cert.KernelIdeal.Gen.bcast_S1100000x1_S1100000x64_0_1 _ (ix2 e d') (ix2 e (0 : Fin 1))
    (fun a => match a with
      | ⟨0, _⟩ => by show e.val = if (1100000 : Nat) = 1 then 0 else e.val; rw [if_neg (by decide)]
      | ⟨1, _⟩ => by show (0 : Nat) = if (1 : Nat) = 1 then 0 else d'.val; rw [if_pos rfl])).trans ?_
  exact broadcastInDim_apply _ Cert.KernelIdeal.Gen.bcast_S1100000_S1100000x1_0 y (ix2 e (0 : Fin 1)) (ix1 e)
    (fun a => match a with
      | ⟨0, _⟩ => by show e.val = if (1100000 : Nat) = 1 then 0 else e.val; rw [if_neg (by decide)])

/-- The normalised sources the kernel program takes rows at are the reference's (the same operations on the same rows). -/
theorem sources_same :
    (broadcastInDim Cert.KernelIdeal.S1100000x1 ![0] Cert.KernelIdeal.Gen.bcast_S1100000_S1100000x1_0
      (select
        (cmpi .slt (val_main_v7 (F := Ideal) x1)
          (broadcastInDim Cert.KernelIdeal.S1100000 ![] Cert.KernelIdeal.Gen.bcast_S_S1100000 (constantI Cert.KernelIdeal.S_ 32 0#32)))
        (addi (val_main_v7 (F := Ideal) x1)
          (broadcastInDim Cert.KernelIdeal.S1100000 ![] Cert.KernelIdeal.Gen.bcast_S_S1100000 (constantI Cert.KernelIdeal.S_ 32 100000#32)))
        (val_main_v7 (F := Ideal) x1)) : S1100000x1.Idx → BitVec 32)
      = val_main_v42 (F := Ideal) x1 := rfl

/-- The row message `e` carries in the kernel program, at column `d'`. -/
theorem ker_msg (e : Fin 1100000) (d' : Fin 64) :
    messages x0 x1 x2 (ix2 e d')
      = val_main_v10 (F := Ideal) x1 (ix1 e)
          * (val_main_v35 (F := Ideal) x0 x2 (ix2 (src x1 e) d') * val_main_v17 (F := Ideal) x1 (ix1 (src x1 e))) := by
  unfold messages
  rw [mulf_apply, extf_apply, weight_apply, ← projected_apply, sources_same]
  refine congrArg (val_main_v10 (F := Ideal) x1 (ix1 e) * ·) ?_
  exact gather_rows_apply (N := 100000) (D := 64) (M := 1100000) (by decide)
    Cert.KernelIdeal.Gen.gather_S100000x64_S1100000x1_S1100000x64_1_0_n_n_0_1_164_wf (projected x0 x1 x2)
    (val_main_v42 (F := Ideal) x1) e d'

/-- The kernel program's aggregate is a scatter-add with the reference's dimension numbers, zero array and row numbers;
    only the updates differ. -/
theorem aggregate_eq : aggregate x0 x1 x2
    = Ideal.hostScatterAdd scatter_S100000x64_S1100000x1_S1100000x64_1_0_0_1 (val_main_v46 (F := Ideal))
        (val_main_v47 (F := Ideal) x1) (messages x0 x1 x2) := rfl

/-- The kernel program's result at `(n, d)`: the aggregate scaled by the node's normalisation, plus the bias. -/
theorem result_apply (n : Fin 100000) (d : Fin 64) :
    result x0 x1 x2 x3 (ix2 n d) = aggregate x0 x1 x2 (ix2 n d) * column x1 (ix2 n (0 : Fin 1)) + x3 (ix1 d) := rfl

/-- A kernel message that lands on row `n`, scaled by the normalisation of `n`, is the reference's update. -/
theorem msg_scale (n : Fin 100000) (d : Fin 64) (e : Fin 1100000) (d' : Fin 64)
    (hj : scatter_S100000x64_S1100000x1_S1100000x64_1_0_0_1.resultIdx? (ix2 e d') (val_main_v47 (F := Ideal) x1)
      = some (ix2 n d)) :
    messages x0 x1 x2 (ix2 e d') * val_main_v17 (F := Ideal) x1 (ix1 n) = val_main_v45 (F := Ideal) x0 x1 x2 (ix2 e d') := by
  rw [ker_msg, ref_msg, hit_dst x1 e d' n d hj]
  generalize val_main_v10 (F := Ideal) x1 (ix1 e) = w
  generalize val_main_v35 (F := Ideal) x0 x2 (ix2 (src x1 e) d') = b
  generalize val_main_v17 (F := Ideal) x1 (ix1 (src x1 e)) = a
  generalize val_main_v17 (F := Ideal) x1 (ix1 n) = c
  simp only [mul_comm, mul_assoc, mul_left_comm]

/-- THE TWO RESULT FUNCTIONS ARE ONE. -/
theorem result_eq : result x0 x1 x2 x3 = val_main_v51 (F := Ideal) x0 x1 x2 x3 := by
  funext i
  obtain ⟨n, d, rfl⟩ : ∃ (n : Fin 100000) (d : Fin 64), i = ix2 n d := ⟨i 0, i 1, eq_ix2 i⟩
  rw [ref_apply, result_apply, column_apply, aggregate_eq]
  obtain ⟨r, hr, hdis⟩ := dis_real x1 n
  refine congrArg (· + x3 (ix1 d)) ?_
  rw [hdis]
  refine Cert.Lib.NonnegScale.scatterAdd_mul_coe scatter_S100000x64_S1100000x1_S1100000x64_1_0_0_1
    (val_main_v46 (F := Ideal)) (val_main_v47 (F := Ideal) x1) (messages x0 x1 x2) (val_main_v45 (F := Ideal) x0 x1 x2)
    (ix2 n d) hr (zero_apply (ix2 n d)) fun j hj => ?_
  obtain ⟨e, d', rfl⟩ : ∃ (e : Fin 1100000) (d' : Fin 64), j = ix2 e d' := ⟨j 0, j 1, eq_ix2 j⟩
  rw [← hdis]
  exact msg_scale x0 x1 x2 n d e d' hj

end Cert.Bridge

end
-- ==== Proof.lean ====
/- The proof of `Cert.Claim` (proofs.«160179_j59012850647685_2_alg».proof.Defs): a graph-convolution layer with symmetric
   degree normalisation, written as two pipelined kernels around a gather and a segment sum, against the plain form.

   With `δ[n] = if 0 < deg n then 1/√(deg n) else 0`, `H = X · Wᵀ` and the messages `e` (edges that are not loops, then
   one self-message per node) with weight `ew[e]`, source `src e` and destination `dst e`, the reference computes
       out[n, d] = ∑_{e lands on n} ((δ[src e] · ew[e]) · δ[dst e]) · H[src e, d] + bias[d]
   and the kernel program pulls the destination's factor out of the sum:
       out[n, d] = (∑_{e lands on n} ew[e] · (H[src e, d] · δ[src e])) · δ[n] + bias[d].
   The two agree on the extended reals for EVERY input: a message that lands on row `n` has `dst e = n`, `δ[n]` is a
   nonnegative real whatever the degrees are, a nonnegative real factor distributes over any finite sum of extended
   reals, and the rest is commutativity and associativity of the product (Proof/Bridge.lean). The precondition is not
   opened.

   The modules: Proof/KernelRun.lean (the kernel program's run with the result array named), Proof/LinearValue.lean and
   Proof/EpilogueValue.lean (each kernel region as one whole-array function of the arrays it is entered with),
   Proof/HostStretches.lean (the host operations around the regions), Proof/KernelValue.lean (the kernel program's
   result as one function of the four arguments), Proof/RefRun.lean and Proof/RefRead.lean (the reference's run and its
   stages), Proof/RefValue.lean (the reference at one entry), Proof/Bridge.lean (the two functions are one), and the
   general lemma files Proof/Lib*.lean. -/
import proofs.«160179_j59012850647685_2_alg».proof.Defs
import proofs.«160179_j59012850647685_2_alg».proof.Proof.Gen.Kernel
import proofs.«160179_j59012850647685_2_alg».proof.Proof.Gen.Kernel.Skeleton
import proofs.«160179_j59012850647685_2_alg».proof.Proof.Gen.Kernel.Launch
import proofs.«160179_j59012850647685_2_alg».proof.Proof.Gen.Kernel.Points
import proofs.«160179_j59012850647685_2_alg».proof.Proof.Gen.Kernel.Frame
import proofs.«160179_j59012850647685_2_alg».proof.Proof.Gen.KernelIdeal
import proofs.«160179_j59012850647685_2_alg».proof.Proof.Gen.KernelIdeal.Skeleton
import proofs.«160179_j59012850647685_2_alg».proof.Proof.Gen.KernelIdeal.Launch
import proofs.«160179_j59012850647685_2_alg».proof.Proof.Gen.KernelIdeal.Points
import proofs.«160179_j59012850647685_2_alg».proof.Proof.Gen.KernelIdeal.Frame
import proofs.«160179_j59012850647685_2_alg».proof.Proof.Gen.ReferenceIdeal
import proofs.«160179_j59012850647685_2_alg».proof.Proof.Gen.Pre_finite_inputs
import proofs.«160179_j59012850647685_2_alg».proof.Proof.RefRead
import proofs.«160179_j59012850647685_2_alg».proof.Proof.KernelRun
import proofs.«160179_j59012850647685_2_alg».proof.Proof.KernelValue
import proofs.«160179_j59012850647685_2_alg».proof.Proof.Bridge
import Idealize.ShloMosaic.Adequacy
import Idealize.ShloMosaic.Init

noncomputable section

namespace Cert.Proof

open Idealize.ShloMosaic Idealize.SL.Sem

/-- The kernel program as printed runs and leaves its arguments: its generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a host program: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the same result: the kernel program's at its result function of the arguments
    (Proof/KernelValue.lean), the reference's at its last stage (the generated run), and the two functions are one
    (Proof/Bridge.lean). -/
theorem algebraic : Cert.algebraic_KernelIdeal_ReferenceIdeal := by
  intro m ρ m' ρ' _ hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.result_eq m ρ c), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, (hagree c).1, (hagree c).2.1, (hagree c).2.2.1, (hagree c).2.2.2]
    exact (Cert.Bridge.result_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
